-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x64 .f32 .bf16
  ∧ IdealRules.truncf_extf.Statement Cert.KernelIdeal.S2048x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .bf16⟩
  | .hbm, ⟨7, _⟩ => ⟨S64x2048x64, .f32⟩
  | .hbm, ⟨8, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .bf16⟩
  | .local _ .vmem, ⟨5, _⟩ => ⟨S1x2048x64, .bf16⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x64 : S1024x1.Broadcasts S1024x64
  shapeCasts_S1024x64_S1x1024x64 : S1024x64.ShapeCasts S1x1024x64
  shapeCasts_S64x2048x64_S4x16x2048x64 : S64x2048x64.ShapeCasts S4x16x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .bf16 = 32 ∨ (Rect.block (s := S64x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 11
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S4x16x2048x2048, .f32⟩
  | .hbm, ⟨5, _⟩ => ⟨S4x16x2048x64, .f32⟩
  | .hbm, ⟨6, _⟩ => ⟨S_, .f32⟩
  | .hbm, ⟨7, _⟩ => ⟨S4x16x2048, .f32⟩
  | .hbm, ⟨8, _⟩ => ⟨S4x16x2048x1, .f32⟩
  | .hbm, ⟨9, _⟩ => ⟨S4x16x2048x64, .f32⟩
  | .hbm, ⟨10, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  reducesTo_S4x16x2048x2048_S4x16x2048_d3 : S4x16x2048x2048.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S4x16x2048x1_S4x16x2048x64_0_1_2_3 : S4x16x2048x1.BroadcastsInDim S4x16x2048x64 (![0, 1, 2, 3] : Fin 4 → Fin S4x16x2048x64.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Finite.lean ====
/-
  What the precondition says of the arguments: each of the three arrays passes `all (|x| < +∞)`, so every entry of
  every argument is a real number — neither infinity (and the junk value a NaN reads as is `⊥`, excluded too).
-/
import proofs.«177094_j55585466745217_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Attn

open Idealize.ShloMosaic Idealize.ShloMosaic.ValueIdx

/-- The pattern `0x7F800000` is `+∞`. -/
theorem ofBits_inf : Ideal.ofBits .f32 0x7F800000#32 = ⊤ := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton Cert.Pre_finite_inputs.S_.Idx := ⟨fun a b => funext fun d => d.elim0⟩

variable [Cert.Pre_finite_inputs.Facts]

/-- One array's `all (|x| < +∞) = true` gives a real at every index. -/
theorem real_of_all (a : FVec Ideal Cert.Pre_finite_inputs.S4x16x2048x64 .f32)
    (h : Host.reduce IntOp.andi
        (cmpf .olt (Host.absf a) (broadcastInDim Cert.Pre_finite_inputs.S4x16x2048x64 ![] Cert.Pre_finite_inputs.Facts.bcast_S_S4x16x2048x64 (constant (F := Ideal) Cert.Pre_finite_inputs.S_ .f32 0x7F800000#32)))
        (constantI Cert.Pre_finite_inputs.S_ 1 1#1) Cert.Pre_finite_inputs.Facts.reducesTo_S4x16x2048x64_S_d0_1_2_3 Cert.Pre_finite_inputs.Facts.h_S_ ix0 = 1#1)
    (i : Cert.Pre_finite_inputs.S4x16x2048x64.Idx) : ∃ r : ℝ, a i = (r : EReal) := by
  have e := Host.reduce_andi_all _ _ _ _ _ h i
  have e' : Ideal.cmp .olt (max (a i) (-(a i))) (Ideal.ofBits .f32 0x7F800000#32) = 1#1 := e
  rw [ofBits_inf] at e'
  have hlt : max (a i) (-(a i)) < ⊤ := by
    by_contra hn
    simp [Ideal.cmp, hn] at e'
  exact real_of_abs_lt_top _ hlt

/-- The precondition read back: every entry of each of the three arguments is a real number. -/
theorem real_of_pre (a0 a1 a2 : FVec Ideal Cert.Pre_finite_inputs.S4x16x2048x64 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨real_of_all a0 h0', real_of_all a1 h1, real_of_all a2 h2⟩

end Cert.Attn

end
-- ==== Proof.Attention.lean ====
/-
  Unnormalised-softmax attention over f32[4, 16, 2048, 64] as ONE function of the three argument arrays, index by
  index on the extended reals: the score of query row `q` against key row `k` of head `(b, h)` is the inner product
  over the 64 features; the result at `(b, h, q, d)` is the `exp`-weighted sum of the value rows' feature `d` divided by
  the sum of the weights. And the one law the two programs differ by: a score computed in three passes over a
  "high" part `x` and a "low" part `x - x` of each operand is the plain inner product once every entry is a real
  number, since then `x - x = 0` (on the extended reals `⊤ - ⊤` is not `0`, which is why finiteness is needed).
-/
import Idealize.ShloMosaic.PureOps.Ideal
import Idealize.ShloMosaic.PureOps.Ideal.Laws
import Idealize.ShloMosaic.Lib.ValueIdx
import Idealize.ShloMosaic.Lib.Pipeline.Value

noncomputable section

namespace Cert.Attn

open Idealize.ShloMosaic Idealize.ShloMosaic.ValueIdx

/-- The shape of each argument and of the result: batch, head, sequence position, feature. -/
abbrev A4 : Shape := ⟨4, ![4, 16, 2048, 64]⟩

/-- The score of query row `q` against key row `k` in head `(b, h)`: their inner product over the features. -/
def score (Q K : A4.Idx → EReal) (b : Fin 4) (h : Fin 16) (q k : Fin 2048) : EReal :=
  ∑ d : Fin 64, Q (ix4 b h q d) * K (ix4 b h k d)

/-- Attention without max-subtraction: at `(b, h, q, d)`, the sum over key rows `k` of `exp (score q k) · V (b, h, k, d)`
    divided by the sum over `k` of `exp (score q k)`. -/
def attn (Q V K : A4.Idx → EReal) : A4.Idx → EReal := fun i =>
  Ideal.div (∑ k : Fin 2048, Ideal.exp (score Q K (i 0) (i 1) (i 2) k) * V (ix4 (i 0) (i 1) k (i 3)))
    (∑ k : Fin 2048, Ideal.exp (score Q K (i 0) (i 1) (i 2) k))

/-- A real number minus itself is zero (false at the infinities). -/
theorem sub_self_of_real {x : EReal} (h : ∃ r : ℝ, x = (r : EReal)) : x - x = 0 := by
  obtain ⟨r, rfl⟩ := h
  rw [← EReal.coe_sub, sub_self, EReal.coe_zero]

/-- The three-pass inner product: with every entry real, the two passes against a low part `x - x` vanish term by
    term and the sum is the plain inner product. -/
theorem three_pass {n : ℕ} (q k : Fin n → EReal) (hq : ∀ d, ∃ r : ℝ, q d = (r : EReal)) (hk : ∀ d, ∃ r : ℝ, k d = (r : EReal)) :
    (∑ d, q d * k d + ∑ d, q d * (k d - k d)) + ∑ d, (q d - q d) * k d = ∑ d, q d * k d := by
  have h1 : ∑ d, q d * (k d - k d) = 0 := Finset.sum_eq_zero fun d _ => by rw [sub_self_of_real (hk d), mul_zero]
  have h2 : ∑ d, (q d - q d) * k d = 0 := Finset.sum_eq_zero fun d _ => by rw [sub_self_of_real (hq d), zero_mul]
  rw [h1, h2, add_zero, add_zero]

/-! ## The same function with batch and head merged into one axis

The kernel works on the arrays reshaped to `[64, 2048, 64]`: head `g = 16·b + h` of the merged axis is head `(b, h)`. -/

/-- The shape with batch and head merged. -/
abbrev A3 : Shape := ⟨3, ![64, 2048, 64]⟩

/-- Attention of one merged head, index by index: at `(g, q, d)`, over the key rows `k` of the same head `g`. -/
def attn3 (Q K V : A3.Idx → EReal) : A3.Idx → EReal := fun i =>
  Ideal.div (∑ k : Fin 2048, Ideal.exp (∑ e : Fin 64, Q (ix3 (i 0) (i 1) e) * K (ix3 (i 0) k e)) * V (ix3 (i 0) k (i 2)))
    (∑ k : Fin 2048, Ideal.exp (∑ e : Fin 64, Q (ix3 (i 0) (i 1) e) * K (ix3 (i 0) k e)))

/-- An array with batch and head merged: entry `(g, q, d)` is entry `(g / 16, g % 16, q, d)`. -/
def merge (X : A4.Idx → EReal) : A3.Idx → EReal := fun j =>
  X (ix4 (⟨(j 0).val / 16, by have := (j 0).isLt; show (j 0).val / 16 < 4; have : (j 0).val < 64 := this; omega⟩ : Fin 4)
    (⟨(j 0).val % 16, Nat.mod_lt _ (by decide)⟩ : Fin 16) (j 1) (j 2))

/-- The merged head of `(b, h)`. -/
abbrev head (b : Fin 4) (h : Fin 16) : Fin 64 := ⟨b.val * 16 + h.val, by have := b.isLt; have := h.isLt; omega⟩

theorem merge_head (X : A4.Idx → EReal) (b : Fin 4) (h : Fin 16) (q : Fin 2048) (d : Fin 64) :
    merge X (ix3 (head b h) q d) = X (ix4 b h q d) := by
  unfold merge
  have hb : (⟨(b.val * 16 + h.val) / 16, by have := b.isLt; have := h.isLt; omega⟩ : Fin 4) = b := Fin.ext (by have := h.isLt; show (b.val * 16 + h.val) / 16 = b.val; omega)
  have hh : (⟨(b.val * 16 + h.val) % 16, Nat.mod_lt _ (by decide)⟩ : Fin 16) = h := Fin.ext (by have := h.isLt; show (b.val * 16 + h.val) % 16 = h.val; omega)
  show X (ix4 (⟨(b.val * 16 + h.val) / 16, _⟩ : Fin 4) (⟨(b.val * 16 + h.val) % 16, _⟩ : Fin 16) q d) = _
  rw [hb, hh]

/-- Attention of the merged head of `(b, h)` on the merged arrays is attention at `(b, h)`. -/
theorem attn3_merge (Q V K : A4.Idx → EReal) (b : Fin 4) (h : Fin 16) (q : Fin 2048) (d : Fin 64) :
    attn3 (merge Q) (merge K) (merge V) (ix3 (head b h) q d) = attn Q V K (ix4 b h q d) := by
  show Ideal.div (∑ k : Fin 2048, Ideal.exp (∑ e : Fin 64, merge Q (ix3 (head b h) q e) * merge K (ix3 (head b h) k e)) * merge V (ix3 (head b h) k d))
      (∑ k : Fin 2048, Ideal.exp (∑ e : Fin 64, merge Q (ix3 (head b h) q e) * merge K (ix3 (head b h) k e))) = _
  simp only [merge_head]
  rfl

/-- The reshape `[4, 16, 2048, 64] → [64, 2048, 64]` is `merge`: both indices sit at the same row-major position. -/
theorem shapeCast_eq_merge (X : A4.Idx → EReal) (hc : A4.ShapeCasts A3) : shapeCast A3 X hc = merge X := by
  funext j
  unfold merge
  refine shapeCast_apply X hc j _ ?_
  rw [Shape.rowMajor_val_four, Shape.rowMajor_val_three]
  have h0 : (j 0).val < 64 := (j 0).isLt
  show (((j 0).val / 16 * 16 + (j 0).val % 16) * 2048 + (j 1).val) * 64 + (j 2).val = ((j 0).val * 2048 + (j 1).val) * 64 + (j 2).val
  have : (j 0).val / 16 * 16 + (j 0).val % 16 = (j 0).val := by omega
  rw [this]

/-- The reshape back `[64, 2048, 64] → [4, 16, 2048, 64]` reads, at `(b, h, q, d)`, the merged head of `(b, h)`. -/
theorem shapeCast_split_apply (Y : A3.Idx → EReal) (hc : A3.ShapeCasts A4) (b : Fin 4) (h : Fin 16) (q : Fin 2048) (d : Fin 64) :
    shapeCast A4 Y hc (ix4 b h q d) = Y (ix3 (head b h) q d) := by
  refine shapeCast_apply Y hc _ _ ?_
  rw [Shape.rowMajor_val_four, Shape.rowMajor_val_three]
  rfl

end Cert.Attn

end
-- ==== Proof.RefValue.lean ====
/-
  The reference program's result term IS `attn` of its arguments: reading its eight operations at an index
  `(b, h, q, d)` — the first `dot_general` contracts the features of query row `q` and key row `k`, the exponential
  is pointwise, the second `dot_general` contracts the key rows against the values' feature `d`, the sum over key rows
  starts from the zero word, the two broadcasts re-read the row sum at `(b, h, q)`, and the quotient is pointwise.
-/
import proofs.«177094_j55585466745217_2_alg».proof.Proof.Gen.ReferenceIdeal.Read
import proofs.«177094_j55585466745217_2_alg».proof.Proof.Attention

noncomputable section

namespace Cert.Attn.Ref

open Idealize.ShloMosaic Idealize.ShloMosaic.ValueIdx Cert.ReferenceIdeal Cert.ReferenceIdeal.Read Cert.Attn

/-- The reference's last stage, as a function of (queries, values, keys), is `attn`. -/
theorem stage_eq_attn (Q V K : A4.Idx → EReal) : val_main_v6 (F := Ideal) Q V K = attn Q V K := by
  funext i
  rw [val_main_v6_apply, val_main_v2_apply, val_main_v5_apply, val_main_v4_apply, val_main_v3_apply]
  simp only [val_main_v1_apply, val_main_v0_apply, val_main_cst_apply, Ideal.hostDivf_def, Ideal.hostUnary_exp_def,
    Ideal.ofBits_def, Ideal.ofBits_zero_f32, zero_add]
  have e1 : ∀ (k : Fin 2048) (d : Fin 64), lidx_main_v0 (lidx_main_v2 i k) d = ix4 (i 0) (i 1) (i 2) d :=
    fun k d => funext fun a => by match a with | ⟨0, _⟩ => rfl | ⟨1, _⟩ => rfl | ⟨2, _⟩ => rfl | ⟨3, _⟩ => rfl
  have e2 : ∀ (k : Fin 2048) (d : Fin 64), ridx_main_v0 (lidx_main_v2 i k) d = ix4 (i 0) (i 1) k d :=
    fun k d => funext fun a => by match a with | ⟨0, _⟩ => rfl | ⟨1, _⟩ => rfl | ⟨2, _⟩ => rfl | ⟨3, _⟩ => rfl
  have e3 : ∀ k : Fin 2048, ridx_main_v2 i k = ix4 (i 0) (i 1) k (i 3) :=
    fun k => funext fun a => by match a with | ⟨0, _⟩ => rfl | ⟨1, _⟩ => rfl | ⟨2, _⟩ => rfl | ⟨3, _⟩ => rfl
  have e4 : ∀ (k : Fin 2048) (d : Fin 64), lidx_main_v0 (idx_main_v3 (idx_main_v4 (idx_main_v5 i)) k) d = ix4 (i 0) (i 1) (i 2) d :=
    fun k d => funext fun a => by match a with | ⟨0, _⟩ => rfl | ⟨1, _⟩ => rfl | ⟨2, _⟩ => rfl | ⟨3, _⟩ => rfl
  have e5 : ∀ (k : Fin 2048) (d : Fin 64), ridx_main_v0 (idx_main_v3 (idx_main_v4 (idx_main_v5 i)) k) d = ix4 (i 0) (i 1) k d :=
    fun k d => funext fun a => by match a with | ⟨0, _⟩ => rfl | ⟨1, _⟩ => rfl | ⟨2, _⟩ => rfl | ⟨3, _⟩ => rfl
  simp only [e1, e2, e3, e4, e5]
  rfl

end Cert.Attn.Ref

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  The value the kernel body stores, read at one entry `(0, r, d)` of its `[1, 1024, 64]` output block, as a function
  of the three blocks it loads: the query tile `x0` (`[1, 1024, 64]`), the keys `x1` and the values `x2` of the same
  head (`[1, 2048, 64]` each). The body forms the score of query row `r` against every key row `k` in three matrix
  products — high parts, high by low, low by high, the low part of `x` being `x - x` once the rounding to bf16 and back
  is the identity — adds them, exponentiates, sums each row over `k`, multiplies the exponentials into the values,
  and divides by the row sum. With every entry of `x0` and `x1` real the low parts vanish (`Attn.three_pass`) and what
  is left is the `exp`-weighted mean of the value rows.
-/
import proofs.«177094_j55585466745217_2_alg».proof.Proof.Gen.KernelIdeal.Skeleton
import proofs.«177094_j55585466745217_2_alg».proof.Proof.Attention
import proofs.«177094_j55585466745217_2_alg».proof.Proof.LibKeepdims
import Idealize.ShloMosaic.Lib.ValueLayout
import Idealize.ShloMosaic.Lib.ValueIdx
import Idealize.ShloMosaic.PureOps.Ideal.Laws

noncomputable section

namespace Cert.Attn.Kern

open Idealize.ShloMosaic Idealize.ShloMosaic.ValueIdx Cert.KernelIdeal Cert.KernelIdeal.Gen Cert.Attn

/-- The contraction of a `[1024, 64]` tile with a `[2048, 64]` tile over their second axes. -/
abbrev DQK := dot_S1024x64_S2048x64_S1024x2048_1_1_0_0_n_n
/-- The contraction of a `[1024, 2048]` matrix with a `[2048, 64]` tile over the shared axis. -/
abbrev DPV := dot_S1024x2048_S2048x64_S1024x64_1_0_0_1_n_n

/-- The operand indices of the first contraction at output `(p, k)` and contraction coordinate `q`, axis by axis:
    the left operand is read at row `p`, the right at row `k`, both at feature `q`. -/
theorem qk_lhs_0 (i : S1024x2048.Idx) (q : DQK.contr.Idx) : (DQK.lhsIdx i q 0).val = (i 0).val := by
  unfold DotDims.lhsIdx
  rw [dif_neg (show ¬(0 : Fin S1024x64.rank) ∈ DQK.lhsBatch by decide), dif_pos (show (0 : Fin S1024x64.rank) ∈ DQK.lhsNonContracting by decide)]
  rfl
theorem qk_lhs_1 (i : S1024x2048.Idx) (q : DQK.contr.Idx) : (DQK.lhsIdx i q 1).val = (q ⟨0, by decide⟩).val :=
  DQK.lhsIdx_val_of_single rfl i q
theorem qk_rhs_0 (i : S1024x2048.Idx) (q : DQK.contr.Idx) : (DQK.rhsIdx i q 0).val = (i 1).val := by
  unfold DotDims.rhsIdx
  rw [dif_neg (show ¬(0 : Fin S2048x64.rank) ∈ DQK.rhsBatch by decide), dif_pos (show (0 : Fin S2048x64.rank) ∈ DQK.rhsNonContracting by decide)]
  rfl
theorem qk_rhs_1 (i : S1024x2048.Idx) (q : DQK.contr.Idx) : (DQK.rhsIdx i q 1).val = (q ⟨0, by decide⟩).val :=
  DQK.rhsIdx_val_of_single rfl i q

/-- Rows of the left tile against rows of the right tile: entry `(p, k)` of the product into a zero accumulator is
    the inner product of row `p` and row `k` over the 64 features. -/
theorem rows_by_rows {φ₁ φ₂ : FTy} (l : FVec Ideal S1024x64 φ₁) (r : FVec Ideal S2048x64 φ₂) (p : Fin 1024) (k : Fin 2048) :
    FloatOps.matmul DQK none l r (constant (F := Ideal) S1024x2048 .f32 0x00000000#32) (ix2 p k)
      = ∑ e : Fin 64, l (ix2 p e) * r (ix2 k e) := by
  rw [Ideal.matmul_constant_zero_apply, ← Equiv.sum_comp (contrEquiv1 DQK 64 rfl rfl).symm]
  refine Finset.sum_congr rfl fun e _ => ?_
  have hk := contrEquiv1_symm_val DQK 64 rfl rfl e
  have el : DQK.lhsIdx (ix2 p k) ((contrEquiv1 DQK 64 rfl rfl).symm e) = ix2 p e := funext fun a => Fin.ext (by
    match a with
    | ⟨0, _⟩ => exact qk_lhs_0 _ _
    | ⟨1, _⟩ => exact (qk_lhs_1 _ _).trans hk)
  have er : DQK.rhsIdx (ix2 p k) ((contrEquiv1 DQK 64 rfl rfl).symm e) = ix2 k e := funext fun a => Fin.ext (by
    match a with
    | ⟨0, _⟩ => exact qk_rhs_0 _ _
    | ⟨1, _⟩ => exact (qk_rhs_1 _ _).trans hk)
  rw [el, er]

/-- The operand indices of the second contraction at output `(p, d)` and contraction coordinate `q`: the left operand
    is read at `(p, q)`, the right at `(q, d)`. -/
theorem pv_lhs_0 (i : S1024x64.Idx) (q : DPV.contr.Idx) : (DPV.lhsIdx i q 0).val = (i 0).val := by
  unfold DotDims.lhsIdx
  rw [dif_neg (show ¬(0 : Fin S1024x2048.rank) ∈ DPV.lhsBatch by decide), dif_pos (show (0 : Fin S1024x2048.rank) ∈ DPV.lhsNonContracting by decide)]
  rfl
theorem pv_lhs_1 (i : S1024x64.Idx) (q : DPV.contr.Idx) : (DPV.lhsIdx i q 1).val = (q ⟨0, by decide⟩).val :=
  DPV.lhsIdx_val_of_single rfl i q
theorem pv_rhs_0 (i : S1024x64.Idx) (q : DPV.contr.Idx) : (DPV.rhsIdx i q 0).val = (q ⟨0, by decide⟩).val :=
  DPV.rhsIdx_val_of_single rfl i q
theorem pv_rhs_1 (i : S1024x64.Idx) (q : DPV.contr.Idx) : (DPV.rhsIdx i q 1).val = (i 1).val := by
  unfold DotDims.rhsIdx
  rw [dif_neg (show ¬(1 : Fin S2048x64.rank) ∈ DPV.rhsBatch by decide), dif_pos (show (1 : Fin S2048x64.rank) ∈ DPV.rhsNonContracting by decide)]
  rfl

/-- Rows of the left matrix against columns of the right tile: entry `(p, d)` of the product into a zero accumulator
    is the sum over `k` of `l (p, k) · r (k, d)`. -/
theorem rows_by_cols {φ₁ φ₂ : FTy} (l : FVec Ideal S1024x2048 φ₁) (r : FVec Ideal S2048x64 φ₂) (p : Fin 1024) (d : Fin 64) :
    FloatOps.matmul DPV none l r (constant (F := Ideal) S1024x64 .f32 0x00000000#32) (ix2 p d)
      = ∑ k : Fin 2048, l (ix2 p k) * r (ix2 k d) := by
  rw [Ideal.matmul_constant_zero_apply, ← Equiv.sum_comp (contrEquiv1 DPV 2048 rfl rfl).symm]
  refine Finset.sum_congr rfl fun k _ => ?_
  have hk := contrEquiv1_symm_val DPV 2048 rfl rfl k
  have el : DPV.lhsIdx (ix2 p d) ((contrEquiv1 DPV 2048 rfl rfl).symm k) = ix2 p k := funext fun a => Fin.ext (by
    match a with
    | ⟨0, _⟩ => exact pv_lhs_0 _ _
    | ⟨1, _⟩ => exact (pv_lhs_1 _ _).trans hk)
  have er : DPV.rhsIdx (ix2 p d) ((contrEquiv1 DPV 2048 rfl rfl).symm k) = ix2 k d := funext fun a => Fin.ext (by
    match a with
    | ⟨0, _⟩ => exact (pv_rhs_0 _ _).trans hk
    | ⟨1, _⟩ => exact pv_rhs_1 _ _)
  rw [el, er]

/-- A row index `p` of the `[1024]` result of a sum over the second axis, with the summed coordinate `k` put back, is `(p, k)`. -/
theorem lift_row (h : S1024x2048.Reduces [1] S1024) (p : Fin 1024) (k : Fin (S1024x2048.size 1)) :
    h.lift (ix1 p) k = ix2 p (⟨k.val, k.isLt⟩ : Fin 2048) := by
  funext c; apply Fin.ext
  fin_cases c <;> rfl

/-- The sum of a `[1024, 2048]` matrix over its second axis, at row `p`, is the sum of that row's entries. -/
theorem row_sum (src : FVec Ideal S1024x2048 .f32) (h : S1024x2048.Reduces [1] S1024) (p : Fin 1024) :
    multiReduction (F := Ideal) .add [1] S1024 src 0x00000000#32 h (.inl rfl) rfl (ix1 p) = ∑ k : Fin 2048, src (ix2 p k) := by
  refine (Ideal.multiReduction_add_single src 0x00000000#32 h (.inl rfl) rfl (ix1 p)).trans ?_
  exact Finset.sum_congr rfl fun k _ => congrArg src (lift_row h p k)

/-- The three-pass score: with `q` and `kk` real everywhere, entry `(p, k)` of
    `q·kkᵀ + q·(kk - kk)ᵀ + (q - q)·kkᵀ` (each operand narrowed on its way into the product, which changes nothing
    on the extended reals) is the inner product of row `p` of `q` and row `k` of `kk`. -/
theorem three_pass_scores (q : FVec Ideal S1024x64 .f32) (kk : FVec Ideal S2048x64 .f32)
    (hq : ∀ j, ∃ r : ℝ, q j = (r : EReal)) (hk : ∀ j, ∃ r : ℝ, kk j = (r : EReal))
    (hb : FTy.bits .bf16 < FTy.bits .f32) (p : Fin 1024) (k : Fin 2048) :
    addf (addf (matmul DQK none (truncf .bf16 q hb) (truncf .bf16 kk hb) (constant (F := Ideal) S1024x2048 .f32 0x00000000#32))
          (matmul DQK none (truncf .bf16 q hb) (truncf .bf16 (subf kk kk) hb) (constant (F := Ideal) S1024x2048 .f32 0x00000000#32)))
        (matmul DQK none (truncf .bf16 (subf q q) hb) (truncf .bf16 kk hb) (constant (F := Ideal) S1024x2048 .f32 0x00000000#32)) (ix2 p k)
      = ∑ e : Fin 64, q (ix2 p e) * kk (ix2 k e) := by
  show (FloatOps.matmul DQK none (truncf .bf16 q hb) (truncf .bf16 kk hb) (constant (F := Ideal) S1024x2048 .f32 0x00000000#32) (ix2 p k)
        + FloatOps.matmul DQK none (truncf .bf16 q hb) (truncf .bf16 (subf kk kk) hb) (constant (F := Ideal) S1024x2048 .f32 0x00000000#32) (ix2 p k))
      + FloatOps.matmul DQK none (truncf .bf16 (subf q q) hb) (truncf .bf16 kk hb) (constant (F := Ideal) S1024x2048 .f32 0x00000000#32) (ix2 p k) = _
  rw [rows_by_rows, rows_by_rows, rows_by_rows]
  exact three_pass (fun e => q (ix2 p e)) (fun e => kk (ix2 k e)) (fun e => hq _) (fun e => hk _)

/-- WHAT THE BODY STORES at entry `(u, r, d)` of its output block, from real query and key blocks: the sum over key
    rows `k` of `exp (x0 row r · x1 row k) · x2 (k, d)`, divided by the sum over `k` of those exponentials. -/
theorem stored_apply (x0 : Vec Ideal S1x1024x64 .f32) (x1 : Vec Ideal S1x2048x64 .f32) (x2 : Vec Ideal S1x2048x64 .bf16)
    (hq : ∀ j, ∃ r : ℝ, x0 j = (r : EReal)) (hk : ∀ j, ∃ r : ℝ, x1 j = (r : EReal))
    (u : Fin 1) (r : Fin 1024) (d : Fin 64) :
    k0_pay1 (F := Ideal) x0 x1 x2 (ix3 u r d) =
      Ideal.div (∑ k : Fin 2048, Ideal.exp (∑ e : Fin 64, x0 (ix3 (0 : Fin 1) r e) * x1 (ix3 (0 : Fin 1) k e)) * x2 (ix3 (0 : Fin 1) k d))
        (∑ k : Fin 2048, Ideal.exp (∑ e : Fin 64, x0 (ix3 (0 : Fin 1) r e) * x1 (ix3 (0 : Fin 1) k e))) := by
  have hs : ∀ k : Fin 2048, _ = ∑ e : Fin 64, x0 (ix3 (0 : Fin 1) r e) * x1 (ix3 (0 : Fin 1) k e) := fun k =>
    (three_pass_scores (shapeCast S1024x64 x0 Facts₀.shapeCasts_S1x1024x64_S1024x64) (shapeCast S2048x64 x1 Facts₀.shapeCasts_S1x2048x64_S2048x64)
      (fun j => hq _) (fun j => hk _) Facts₀.bitsLt_bf16_f32 r k).trans
      (Finset.sum_congr rfl fun e _ => by rw [shapeCast_1ab_ab_apply, shapeCast_1ab_ab_apply])
  unfold k0_pay1
  dsimp only
  refine (shapeCast_ab_1ab_apply _ _ u r d).trans ?_
  refine (divf_apply _ _ _).trans ?_
  refine congrArg₂ Ideal.div ?_ ?_
  · refine (rows_by_cols _ _ r d).trans ?_
    refine Finset.sum_congr rfl fun k _ => ?_
    refine congrArg₂ (· * ·) ?_ (shapeCast_1ab_ab_apply _ _ k d)
    exact congrArg Ideal.exp (hs k)
  · refine (Cert.Keepdims.broadcastTo_a1_ab_apply _ _ r d).trans ?_
    refine (Cert.Keepdims.shapeCast_a_a1_apply _ _ r 0).trans ?_
    refine (row_sum _ _ r).trans ?_
    exact Finset.sum_congr rfl fun k _ => congrArg Ideal.exp (hs k)

end Cert.Attn.Kern

end
-- ==== Proof.Blocks.lean ====
/-
  From what one grid point writes back to the whole result array. The grid has a point per merged head `g` (64) and
  per half of the query rows (2): at point `(g, qi)` the body sees query rows `1024·qi … 1024·qi + 1023` of head `g`
  and ALL 2048 key rows and value rows of head `g`, and writes rows `1024·qi …` of head `g` of the result. Since the
  score of a query row needs only that row and the head's keys, the block written is a block of ONE function of the
  three staged arrays — `attn3` — and the 128 blocks tile the `[64, 2048, 64]` result, so the array ends as `attn3`.
  The staged arrays are the arguments with batch and head merged (`merge`), the values also narrowed to bf16, which is
  the identity on the extended reals.
-/
import proofs.«177094_j55585466745217_2_alg».proof.Proof.Gen.KernelIdeal.Frame
import proofs.«177094_j55585466745217_2_alg».proof.Proof.Payload
import Idealize.ShloMosaic.Lib.StableHlo.Run
import Idealize.ShloMosaic.Lib.Pipeline.Value

set_option maxRecDepth 16384

noncomputable section

namespace Cert.Attn.Kern

open Idealize.ShloMosaic Idealize.ShloMosaic.TcCoe Idealize.ShloMosaic.ValueIdx Idealize.SL.Sem
open Cert.KernelIdeal Cert.KernelIdeal.Gen Cert.Attn
open Idealize.ShloMosaic.Pipeline (Dat)

variable (m : (ℓ : Loc nD τ sig) → Buf (Elt Ideal) ℓ) (c : Dev nD)

/-! ## The arrays the region finds -/

/-- The staged queries are the first argument with batch and head merged. -/
theorem staged_queries : (V m c main_v0 : S64x2048x64.Idx → EReal) = merge (m ((c : Thread nD τ).loc main_arg0)) := by
  have e : (V m c main_v0 : S64x2048x64.Idx → EReal)
      = shapeCast S64x2048x64 (m ((c : Thread nD τ).loc main_arg0)) Facts₀.shapeCasts_S4x16x2048x64_S64x2048x64 := by
    show StableHlo.after hostOps0 (fun b => m (c, b)) (Proc.devRef .tc main_v0) = _
    after_results
    rfl
  rw [e]; exact shapeCast_eq_merge _ _

/-- The staged keys are the THIRD argument with batch and head merged. -/
theorem staged_keys : (V m c main_v1 : S64x2048x64.Idx → EReal) = merge (m ((c : Thread nD τ).loc main_arg2)) := by
  have e : (V m c main_v1 : S64x2048x64.Idx → EReal)
      = shapeCast S64x2048x64 (m ((c : Thread nD τ).loc main_arg2)) Facts₀.shapeCasts_S4x16x2048x64_S64x2048x64 := by
    show StableHlo.after hostOps0 (fun b => m (c, b)) (Proc.devRef .tc main_v1) = _
    after_results
    rfl
  rw [e]; exact shapeCast_eq_merge _ _

/-- The staged values are the SECOND argument with batch and head merged (then narrowed to bf16: the identity here). -/
theorem staged_values : (V m c main_v3 : S64x2048x64.Idx → EReal) = merge (m ((c : Thread nD τ).loc main_arg1)) := by
  have e : (V m c main_v3 : S64x2048x64.Idx → EReal)
      = shapeCast S64x2048x64 (m ((c : Thread nD τ).loc main_arg1)) Facts₀.shapeCasts_S4x16x2048x64_S64x2048x64 := by
    show StableHlo.after hostOps0 (fun b => m (c, b)) (Proc.devRef .tc main_v3) = _
    after_results
    rfl
  rw [e]; exact shapeCast_eq_merge _ _

/-! ## One point's block -/

theorem zero_offsets : (![0, 0, 0] : Fin 3 → Nat) = fun _ => 0 := funext fun a => by fin_cases a <;> rfl

/-- The printed index maps, decided over the 128 points: the query window moves with the output window; the key and
    value windows share the output's head and always sit at row block 0; nobody moves along the features. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 63 ∧ win0_3.index t (1 : Fin 3) ≤ 1 ∧ win0_3.index t (2 : Fin 3) = 0 :=
  (by decide +kernel : ∀ t : Fin grid0.N, _)

/-- Every (head, half) pair is some point's output block. -/
theorem index_onto : ∀ (g : Fin 64) (qi : Fin 2), ∃ t : Fin cfg0.N, win0_3.index t = ![g.val, qi.val, 0] :=
  (by decide +kernel : ∀ (g : Fin 64) (qi : Fin 2), ∃ t : Fin grid0.N, win0_3.index t = ![g.val, qi.val, 0])

/-- WHAT POINT `t` WRITES BACK is block `t` of `attn3` of the staged arrays, when the staged queries and keys are real. -/
theorem flushed_eq (hq : ∀ j, ∃ r : ℝ, (V m c main_v0 : S64x2048x64.Idx → EReal) j = (r : EReal))
    (hk : ∀ j, ∃ r : ℝ, (V m c main_v1 : S64x2048x64.Idx → EReal) j = (r : EReal)) (t : Fin cfg0.N) :
    (dats m 0 c).flushed 3 t
      = ((cfg0.win 3).blk t).view.read (Elt Ideal) (attn3 (V m c main_v0) (V m c main_v1) (V m c main_v3)) := by
  show (cfg0.win 3).cut (grid0.coords t) ((dats m 0 c).after 3 t) = _
  rw [after0_3]
  unfold out0_3
  rw [View.canon_unit_zero zero_offsets]
  simp only [View.ld_unit_zero (S := S1x1024x64) zero_offsets, View.ld_unit_zero (S := S1x2048x64) zero_offsets]
  obtain ⟨a0, a1, a2, b0, b1, b2, c0, c1, c2, d0, d1, d2⟩ := index_facts t
  funext j
  obtain ⟨u, r, d, rfl⟩ : ∃ (u : Fin 1) (r : Fin 1024) (d : Fin 64), j = ix3 u r d := ⟨j 0, j 1, j 2, eq_ix3 j⟩
  have hu : u.val = 0 := by omega
  refine (stored_apply (iblk m c 0 t) (iblk m c 1 t) (iblk m c 2 t) (fun y => hq _) (fun y => hk _) u r d).trans ?_
  show _ = attn3 (V m c main_v0) (V m c main_v1) (V m c main_v3) (((cfg0.win 3).blk t).view.emb (ix3 u r d))
  have rQ : ∀ e : Fin 64, iblk m c 0 t (ix3 (0 : Fin 1) r e)
      = V m c main_v0 (ix3 ((((cfg0.win 3).blk t).view.emb (ix3 u r d)) 0) ((((cfg0.win 3).blk t).view.emb (ix3 u r d)) 1) e) := fun e => by
    show V m c main_v0 (((cfg0.win 0).blk t).view.emb (ix3 (0 : Fin 1) r e)) = _
    refine congrArg (V m c main_v0) (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 1024 + 1 * r.val = win0_3.index t (1 : Fin 3) * 1024 + 1 * r.val; omega
    | ⟨2, _⟩ => show win0_0.index t (2 : Fin 3) * 64 + 1 * e.val = e.val; omega
  have rK : ∀ (k : Fin 2048) (e : Fin 64), iblk m c 1 t (ix3 (0 : Fin 1) k e)
      = V m c main_v1 (ix3 ((((cfg0.win 3).blk t).view.emb (ix3 u r d)) 0) k e) := fun k e => by
    show V m c main_v1 (((cfg0.win 1).blk t).view.emb (ix3 (0 : Fin 1) k e)) = _
    refine congrArg (V m c main_v1) (funext fun a => Fin.ext ?_)
    match a with
    | ⟨0, _⟩ => show win0_1.index t (0 : Fin 3) * 1 + 1 * 0 = win0_3.index t (0 : Fin 3) * 1 + 1 * u.val; omega
    | ⟨1, _⟩ => show win0_1.index t (1 : Fin 3) * 2048 + 1 * k.val = k.val; omega
    | ⟨2, _⟩ => show win0_1.index t (2 : Fin 3) * 64 + 1 * e.val = e.val; omega
  have rV : ∀ k : Fin 2048, iblk m c 2 t (ix3 (0 : Fin 1) k d)
      = V m c main_v3 (ix3 ((((cfg0.win 3).blk t).view.emb (ix3 u r d)) 0) k ((((cfg0.win 3).blk t).view.emb (ix3 u r d)) 2)) := fun k => by
    show V m c main_v3 (((cfg0.win 2).blk t).view.emb (ix3 (0 : Fin 1) k d)) = _
    refine congrArg (V m c main_v3) (funext fun a => Fin.ext ?_)
    match a with
    | ⟨0, _⟩ => show win0_2.index t (0 : Fin 3) * 1 + 1 * 0 = win0_3.index t (0 : Fin 3) * 1 + 1 * u.val; omega
    | ⟨1, _⟩ => show win0_2.index t (1 : Fin 3) * 2048 + 1 * k.val = k.val; omega
    | ⟨2, _⟩ => show win0_2.index t (2 : Fin 3) * 64 + 1 * d.val = win0_3.index t (2 : Fin 3) * 64 + 1 * d.val; omega
  simp only [rQ, rK, rV]
  rfl

/-! ## The blocks tile the result -/

/-- An index of the result array is in point `t`'s output block iff each coordinate is in the block's range on its axis. -/
theorem mem_blk (t : Fin cfg0.N) (i : S64x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v4).slice (win0_3.rect t)).set ↔ _
  rw [View.set_slice_whole, Rect.mem_set_unit]
  exact Iff.rfl

/-- Entry `(g, q, d)` is written by the point of head `g` and half `q / 1024`. -/
theorem covered (i : S64x2048x64.Idx) : ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 64 := (i 2).isLt
  obtain ⟨t, ht⟩ := index_onto ⟨(i 0).val, h0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE RESULT ARRAY after the region: `attn3` of the staged arrays, when the staged queries and keys are real. -/
theorem result_array (hq : ∀ j, ∃ r : ℝ, (V m c main_v0 : S64x2048x64.Idx → EReal) j = (r : EReal))
    (hk : ∀ j, ∃ r : ℝ, (V m c main_v1 : S64x2048x64.Idx → EReal) j = (r : EReal)) :
    (dats m 0 c).arrAt 3 cfg0.N = attn3 (V m c main_v0) (V m c main_v1) (V m c main_v3) :=
  (dats m 0 c).arrAt_eq_of_cover 3 _ (fun t _ => flushed_eq m c hq hk t) covered

end Cert.Attn.Kern

end
-- ==== Proof.KernelRun.lean ====
/-
  The idealized kernel program's run with its result NAMED: after the region the `[64, 2048, 64]` result array holds
  `attn3` of the merged arguments, the one host operation after the region splits the merged axis back into batch and
  head, and head `16·b + h` of `attn3` on merged arrays is `attn` at `(b, h)`. So when every entry of the queries and
  of the keys is real, the program ends with `attn (queries) (values) (keys)` in its result and its arguments unchanged.
-/
import proofs.«177094_j55585466745217_2_alg».proof.Proof.Blocks

set_option maxRecDepth 16384

noncomputable section

namespace Cert.Attn.Kern

open Idealize.ShloMosaic Idealize.ShloMosaic.TcCoe Idealize.ShloMosaic.ValueIdx Idealize.SL.Sem
open Cert.KernelIdeal Cert.KernelIdeal.Gen Cert.Attn
open Idealize.ShloMosaic.Pipeline (Dat)

variable (m : (ℓ : Loc nD τ sig) → Buf (Elt Ideal) ℓ) (ρ : Dev nD → PrngReg)

/-- The program's result buffer after the host tail is the region's result array with the merged axis split. -/
theorem tail_eq (c : Dev nD) :
    (Pipeline.afterTail₀ cfgs (dats m) 0 (V0 m) [hostOps1] c main_v5 : S4x16x2048x64.Idx → EReal)
      = shapeCast S4x16x2048x64 ((dats m 0 c).arrAt 3 cfg0.N) Facts₀.shapeCasts_S64x2048x64_S4x16x2048x64 := by
  unfold Pipeline.afterTail₀
  show StableHlo.after hostOps1 _ (Proc.devRef .tc main_v5) = _
  after_results
  exact congrArg (fun A => shapeCast S4x16x2048x64 A Facts₀.shapeCasts_S64x2048x64_S4x16x2048x64)
    (Pipeline.withArrays_arr spec0 launch0.win.arr_inj c (V0 m c) (fun w => (dats m 0 c).arrAt w cfg0.N) 3)

/-- The program's result buffer, from real queries and keys: `attn` of the three arguments (queries, values, keys). -/
theorem result_eq (hQ : ∀ (c : Dev nD) i, ∃ r : ℝ, (m ((c : Thread nD τ).loc main_arg0) : S4x16x2048x64.Idx → EReal) i = (r : EReal))
    (hK : ∀ (c : Dev nD) i, ∃ r : ℝ, (m ((c : Thread nD τ).loc main_arg2) : S4x16x2048x64.Idx → EReal) i = (r : EReal)) (c : Dev nD) :
    (Pipeline.afterTail₀ cfgs (dats m) 0 (V0 m) [hostOps1] c main_v5 : S4x16x2048x64.Idx → EReal)
      = attn (m ((c : Thread nD τ).loc main_arg0)) (m ((c : Thread nD τ).loc main_arg1)) (m ((c : Thread nD τ).loc main_arg2)) := by
  have hq : ∀ j, ∃ r : ℝ, (V m c main_v0 : S64x2048x64.Idx → EReal) j = (r : EReal) := fun j => by
    rw [staged_queries]; exact hQ c _
  have hk : ∀ j, ∃ r : ℝ, (V m c main_v1 : S64x2048x64.Idx → EReal) j = (r : EReal) := fun j => by
    rw [staged_keys]; exact hK c _
  rw [tail_eq, result_array m c hq hk, staged_queries, staged_keys, staged_values]
  funext i
  obtain ⟨b, h, q, d, rfl⟩ : ∃ (b : Fin 4) (h : Fin 16) (q : Fin 2048) (d : Fin 64), i = ix4 b h q d :=
    ⟨i 0, i 1, i 2, i 3, eq_ix4 i⟩
  rw [shapeCast_split_apply]
  exact attn3_merge _ _ _ b h q d

/-- THE RUN, READ: from any memory whose queries and keys are real, every weakly fair execution of the idealized
    kernel program terminates with `attn` of its arguments in its result and the arguments unchanged. -/
theorem run (hQ : ∀ (c : Dev nD) i, ∃ r : ℝ, (m ((c : Thread nD τ).loc main_arg0) : S4x16x2048x64.Idx → EReal) i = (r : EReal))
    (hK : ∀ (c : Dev nD) i, ∃ r : ℝ, (m ((c : Thread nD τ).loc main_arg2) : S4x16x2048x64.Idx → EReal) i = (r : EReal)) :
    θ_run defs (onTc (τ := τ) (main (F := Ideal))) ⟨m, fun _ => 0, ρ⟩ (fun r => ∀ c : Dev nD,
      r.2.mem ((c.tc : Thread nD τ).loc main_v5)
        = attn (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result_eq m hQ hK c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Attn.Kern

end
-- ==== Proof.lean ====
/-
  Attention without max-subtraction over f32[4, 16, 2048, 64], a tiled kernel against the plain jnp expression.

  Both programs compute, at `(b, h, q, d)`,
      ( Σ_k exp (s q k) · V (b, h, k, d) ) / ( Σ_k exp (s q k) ),     s q k = Σ_e Q (b, h, q, e) · K (b, h, k, e).
  The reference does so with two batched contractions, a sum over the key axis and a quotient. The kernel merges batch
  and head into one axis of 64, walks a grid of 64 heads × 2 halves of the query rows, and at each point forms the
  scores of its 1024 query rows against all 2048 key rows of the head in THREE matrix products — high·high, high·low,
  low·high, where the high part of an operand is its rounding to bf16 and the low part is the remainder. On the extended
  reals rounding is the identity, so the high part is the operand itself and the low part is `x - x`; that is `0`
  exactly when `x` is a real number, which the precondition (every input finite) supplies, and then the two extra
  products vanish term by term and the three-pass score is the plain inner product. Everything else — the
  exponential, the row sum, the product with the values, the quotient — is the same operation on both sides, a matrix
  unit's product into a zero accumulator and a lane reduction being plain finite sums here. The 128 output blocks tile
  the merged result, and splitting the merged axis back gives the reference's layout.

  The two round trips bf16 → f32 the idealization removed are its ledger's two entries (`preserves`).
-/
import proofs.«177094_j55585466745217_2_alg».proof.Defs
import proofs.«177094_j55585466745217_2_alg».proof.Proof.Gen.Kernel
import proofs.«177094_j55585466745217_2_alg».proof.Proof.Gen.Kernel.Skeleton
import proofs.«177094_j55585466745217_2_alg».proof.Proof.Gen.Kernel.Launch
import proofs.«177094_j55585466745217_2_alg».proof.Proof.Gen.Kernel.Points
import proofs.«177094_j55585466745217_2_alg».proof.Proof.Gen.Kernel.Frame
import proofs.«177094_j55585466745217_2_alg».proof.Proof.Gen.KernelIdeal
import proofs.«177094_j55585466745217_2_alg».proof.Proof.Gen.KernelIdeal.Skeleton
import proofs.«177094_j55585466745217_2_alg».proof.Proof.Gen.KernelIdeal.Launch
import proofs.«177094_j55585466745217_2_alg».proof.Proof.Gen.KernelIdeal.Points
import proofs.«177094_j55585466745217_2_alg».proof.Proof.Gen.KernelIdeal.Frame
import proofs.«177094_j55585466745217_2_alg».proof.Proof.Gen.ReferenceIdeal
import proofs.«177094_j55585466745217_2_alg».proof.Proof.Gen.Pre_finite_inputs
import proofs.«177094_j55585466745217_2_alg».proof.Proof.Gen.ReferenceIdeal.Run
import proofs.«177094_j55585466745217_2_alg».proof.Proof.Gen.ReferenceIdeal.Read
import proofs.«177094_j55585466745217_2_alg».proof.Proof.Finite
import proofs.«177094_j55585466745217_2_alg».proof.Proof.RefValue
import proofs.«177094_j55585466745217_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is straight-line host code: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Rounding an f32 tile to bf16 and widening it back is the identity on the extended reals: once for the query tile,
    once for the key tile. -/
theorem preserves : Cert.preserves_Kernel_KernelIdeal :=
  ⟨IdealRules.truncf_extf.statement _ .f32 .bf16, IdealRules.truncf_extf.statement _ .f32 .bf16⟩

/-- From memories agreeing on finite arguments both programs end with `attn (queries) (values) (keys)`. -/
theorem algebraic : Cert.algebraic_KernelIdeal_ReferenceIdeal := by
  intro m ρ m' ρ' hpre hagree
  have hfin := fun c => Cert.Attn.real_of_pre _ _ _ (hpre c)
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.Kern.run m ρ (fun c => (hfin c).1) (fun c => (hfin c).2.2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.Attn.Ref.stage_eq_attn, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
